-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S10000x64 : Shape := ⟨2, ![10000, 64]⟩
abbrev S1x64 : Shape := ⟨2, ![1, 64]⟩

abbrev nBuf : Space → Nat
  | .hbm => 58
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S64x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S64x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValue.lean ====
/-
  The idealized kernel's run with its result named.  The program is four stretches in order: host operations, the
  first node pipeline, host operations, the second node pipeline.  Along them the buffer contents are folded
  boundary by boundary (the generated frame's `W0 … W4`), and every weakly fair execution ends with each unscoped
  buffer at the last boundary's contents `W4`.  Read at the result buffer this says the result is what the second
  pipeline's write-backs leave; read at the arguments, that they are unchanged.
-/
import proofs.«126503_j79164837200035_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_out : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Payload.lean ====
/-
  The two combine bodies read at one element.  A body takes a block of 10000 node rows `x`, the matching block of
  aggregated neighbour rows `h`, two 64×64 weight matrices (already transposed on the host) and a bias row, and stores
  `x·Ws + h·Wn + b` (the first layer followed by a maximum with zero).  On the extended reals the roundings to bf16 on
  the way into the matrix unit are the identity and a matrix product into a zero accumulator is the plain sum over
  the contracted axis, so element `(p, q)` of the stored block is
      (∑ₖ x[p,k]·Ws[k,q]) + (∑ₖ h[p,k]·Wn[k,q]) + b[q]        (and its maximum with 0 in the first layer).
-/
import proofs.«126503_j79164837200035_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The coordinates of the block product's operand indices: at output index `i` and contraction index `c` the left
    operand is read at (row of `i`, `c`) and the right one at (`c`, column of `i`). -/
theorem lhs_0 (i : S10000x64.Idx) (c : dot_S10000x64_S64x64_S10000x64_1_0_0_1_n_n.contr.Idx) : (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (c : dot_S10000x64_S64x64_S10000x64_1_0_0_1_n_n.contr.Idx) : (dot_S10000x64_S64x64_S10000x64_1_0_0_1_n_n.lhsIdx i c 1).val = (c ⟨0, by decide⟩).val :=
  dot_S10000x64_S64x64_S10000x64_1_0_0_1_n_n.lhsIdx_val_of_single rfl i c
theorem rhs_0 (i : S10000x64.Idx) (c : dot_S10000x64_S64x64_S10000x64_1_0_0_1_n_n.contr.Idx) : (dot_S10000x64_S64x64_S10000x64_1_0_0_1_n_n.rhsIdx i c 0).val = (c ⟨0, by decide⟩).val :=
  dot_S10000x64_S64x64_S10000x64_1_0_0_1_n_n.rhsIdx_val_of_single rfl i c
theorem rhs_1 (i : S10000x64.Idx) (c : dot_S10000x64_S64x64_S10000x64_1_0_0_1_n_n.contr.Idx) : (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times a weight matrix into the zero accumulator, at `(p, q)`: the sum over the 64 contracted features. -/
theorem mm_at (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q) = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The bias vector laid out as one row and repeated down the block's rows, at `(p, q)`: the bias at `q`. -/
theorem bias_at (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- The second layer's stored block at `(p, q)`. -/
theorem pay_plain_at (x h : Vec Ideal S10000x64 .f32) (ws wn : Vec Ideal S64x64 .f32) (b : Vec Ideal S64 .f32)
    (p : Fin 10000) (q : Fin 64) :
    k1_pay1 x h ws wn b (ix2 p q)
      = (∑ k : Fin 64, x (ix2 p k) * ws (ix2 k q)) + (∑ k : Fin 64, h (ix2 p k) * wn (ix2 k q)) + b (ix1 q) := by
  unfold k1_pay1
  rw [addf_apply, addf_apply, mm_at, mm_at, bias_at]
  simp only [truncf_apply, shapeCast_self]

/-- The first layer's stored block at `(p, q)`: the same, cut off below at zero. -/
theorem pay_relu_at (x h : Vec Ideal S10000x64 .f32) (ws wn : Vec Ideal S64x64 .f32) (b : Vec Ideal S64 .f32)
    (p : Fin 10000) (q : Fin 64) :
    k0_pay1 x h ws wn b (ix2 p q)
      = max ((∑ k : Fin 64, x (ix2 p k) * ws (ix2 k q)) + (∑ k : Fin 64, h (ix2 p k) * wn (ix2 k q)) + b (ix1 q)) 0 := by
  unfold k0_pay1
  rw [maximumf_apply, addf_apply, addf_apply, mm_at, mm_at, bias_at, broadcast_apply]
  simp only [truncf_apply, shapeCast_self]
  show max _ (Ideal.ofBits .f32 0x00000000#32) = _
  rw [Ideal.ofBits_zero_f32]

end Cert.KernelIdeal.Body

end
-- ==== Proof.Spec.lean ====
/-
  The mathematics of one SAGE combine step over all 100000 nodes at once, on the extended reals.
  For node features `x`, aggregated neighbour features `h` (both 100000 × 64), two 64 × 64 matrices `ws`, `wn`
  (the weights as they are multiplied: contracted over their FIRST axis) and a bias `b`,
      affine x h ws wn b (r, j) = (∑ₖ x[r,k]·ws[k,j]) + (∑ₖ h[r,k]·wn[k,j]) + b[j],
  in exactly this grouping of the three summands (addition on the extended reals is not regrouped anywhere in the
  certificate), and `affineRelu` is its maximum with zero.
-/
import Idealize.ShloMosaic.Lib.ValueIdx
import Idealize.ShloMosaic.PureOps.Ideal

noncomputable section

namespace Cert.Sage

open Idealize.ShloMosaic Idealize.ShloMosaic.ValueIdx

/-- nodes × features -/
abbrev SN : Shape := ⟨2, ![100000, 64]⟩
/-- a weight matrix -/
abbrev SW : Shape := ⟨2, ![64, 64]⟩
/-- a bias vector -/
abbrev SB : Shape := ⟨1, ![64]⟩

/-- `x·ws + h·wn + b`, element by element. -/
def affine (x h : SN.Idx → EReal) (ws wn : SW.Idx → EReal) (b : SB.Idx → EReal) : SN.Idx → EReal :=
  fun i => (∑ k : Fin 64, x (ix2 (i 0) k) * ws (ix2 k (i 1))) + (∑ k : Fin 64, h (ix2 (i 0) k) * wn (ix2 k (i 1))) + b (ix1 (i 1))

/-- The same followed by a maximum with zero. -/
def affineRelu (x h : SN.Idx → EReal) (ws wn : SW.Idx → EReal) (b : SB.Idx → EReal) : SN.Idx → EReal :=
  fun i => max (affine x h ws wn b i) 0

theorem affine_ix2 (x h : SN.Idx → EReal) (ws wn : SW.Idx → EReal) (b : SB.Idx → EReal) (r : Fin 100000) (j : Fin 64) :
    affine x h ws wn b (ix2 r j)
      = (∑ k : Fin 64, x (ix2 r k) * ws (ix2 k j)) + (∑ k : Fin 64, h (ix2 r k) * wn (ix2 k j)) + b (ix1 j) := rfl

theorem affineRelu_ix2 (x h : SN.Idx → EReal) (ws wn : SW.Idx → EReal) (b : SB.Idx → EReal) (r : Fin 100000) (j : Fin 64) :
    affineRelu x h ws wn b (ix2 r j)
      = max ((∑ k : Fin 64, x (ix2 r k) * ws (ix2 k j)) + (∑ k : Fin 64, h (ix2 r k) * wn (ix2 k j)) + b (ix1 j)) 0 := rfl

end Cert.Sage

end
-- ==== Proof.Layer0.lean ====
/-
  Region 0 of the node pipeline: ten grid points, point `t` working on node rows `10000·t … 10000·t + 9999`.  Its
  two row-blocked inputs are read through the same row range as the output block, the two weight matrices and the bias
  are read whole at every point, and the body stores the affine combination cut off at zero of its blocks.  So every
  write-back is a block of ONE function of the arrays the region finds, `Cert.Sage.affineRelu` of them, and since the ten
  blocks cover all 100000 rows the output array ends holding that function.  Stated for ANY contents `V` at the
  region's entry.
-/
import proofs.«126503_j79164837200035_1_alg».proof.Proof.Gen.KernelIdeal.Frame
import proofs.«126503_j79164837200035_1_alg».proof.Proof.Payload
import proofs.«126503_j79164837200035_1_alg».proof.Proof.Spec
import Idealize.ShloMosaic.Lib.Pipeline.Value

set_option maxRecDepth 16384

noncomputable section

namespace Cert.KernelIdeal.Layer0

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices of the six windows at grid point `t`: the row-blocked ones are at block row `t`, the others at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem t_lt (t : Fin cfg0.N) : t.val < 10 := lt_of_lt_of_eq t.isLt N_0

/-- Row `p` of the first input's block at point `t` is node row `10000·t + p`. -/
theorem xblk_at (c : Dev nD) (t : Fin cfg0.N) (p : Fin 10000) (k : Fin 64) (r : Fin 100000) (hr : r.val = t.val * 10000 + p.val) :
    (iblk0 V c 0 t : Vec Ideal S10000x64 .f32) (ix2 p k) = (V c main_arg0 : SN.Idx → EReal) (ix2 r k) := by
  obtain ⟨e0, e1, -⟩ := idx_facts t
  unfold iblk0
  rw [View.read_apply]
  show V c main_arg0 _ = V c main_arg0 _
  refine congrArg _ ?_
  funext a; apply Fin.ext
  match a with
  | ⟨0, _⟩ => show win0_0.index t (0 : Fin 2) * 10000 + 1 * p.val = r.val; omega
  | ⟨1, _⟩ => show win0_0.index t (1 : Fin 2) * 64 + 1 * k.val = k.val; omega

/-- The same for the aggregated neighbour rows. -/
theorem hblk_at (c : Dev nD) (t : Fin cfg0.N) (p : Fin 10000) (k : Fin 64) (r : Fin 100000) (hr : r.val = t.val * 10000 + p.val) :
    (iblk0 V c 1 t : Vec Ideal S10000x64 .f32) (ix2 p k) = (V c main_v20 : SN.Idx → EReal) (ix2 r k) := by
  obtain ⟨-, -, e0, e1, -⟩ := idx_facts t
  unfold iblk0
  rw [View.read_apply]
  show V c main_v20 _ = V c main_v20 _
  refine congrArg _ ?_
  funext a; apply Fin.ext
  match a with
  | ⟨0, _⟩ => show win0_1.index t (0 : Fin 2) * 10000 + 1 * p.val = r.val; omega
  | ⟨1, _⟩ => show win0_1.index t (1 : Fin 2) * 64 + 1 * k.val = k.val; omega

/-- The weight matrices and the bias are read whole at every point. -/
theorem wsblk (c : Dev nD) (t : Fin cfg0.N) : (iblk0 V c 2 t : Vec Ideal S64x64 .f32) = (V c main_v21 : SW.Idx → EReal) := by
  obtain ⟨-, -, -, -, e0, e1, -⟩ := idx_facts t
  funext y
  unfold iblk0
  rw [View.read_apply]
  show V c main_v21 _ = V c main_v21 _
  refine congrArg _ ?_
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem wnblk (c : Dev nD) (t : Fin cfg0.N) : (iblk0 V c 3 t : Vec Ideal S64x64 .f32) = (V c main_v22 : SW.Idx → EReal) := by
  obtain ⟨-, -, -, -, -, -, e0, e1, -⟩ := idx_facts t
  funext y
  unfold iblk0
  rw [View.read_apply]
  show V c main_v22 _ = V c main_v22 _
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem bblk (c : Dev nD) (t : Fin cfg0.N) : (iblk0 V c 4 t : Vec Ideal S64 .f32) = (V c main_arg5 : SB.Idx → EReal) := by
  obtain ⟨-, -, -, -, -, -, -, -, e0, -⟩ := idx_facts t
  funext y
  unfold iblk0
  rw [View.read_apply]
  show V c main_arg5 _ = V c main_arg5 _
  refine congrArg _ ?_
  funext a; apply Fin.ext
  match a with
  | ⟨0, _⟩ => show win0_4.index t (0 : Fin 1) * 64 + 1 * (y 0).val = (y 0).val; omega

/-- The body's stored block at block index `y` is the whole-array function at the array index `i` that `y` lands on,
    whenever the two row-blocked inputs are rows `10000·n …` of arrays `X`, `H`. -/
theorem block_eq (x h : Vec Ideal S10000x64 .f32) (ws wn : Vec Ideal S64x64 .f32) (b : Vec Ideal S64 .f32)
    (X H : SN.Idx → EReal) (n : ℕ)
    (hx : ∀ (p : Fin 10000) (k : Fin 64) (r : Fin 100000), r.val = n * 10000 + p.val → x (ix2 p k) = X (ix2 r k))
    (hh : ∀ (p : Fin 10000) (k : Fin 64) (r : Fin 100000), r.val = n * 10000 + p.val → h (ix2 p k) = H (ix2 r k))
    (y : S10000x64.Idx) (i : SN.Idx) (hi0 : (i 0).val = n * 10000 + (y 0).val) (hi1 : (i 1).val = (y 1).val) :
    k0_pay1 x h ws wn b y = affineRelu X H ws wn b i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  have hj : j = q := Fin.ext hi1
  subst hj
  have hx' : ∀ k, x (ix2 p k) = X (ix2 r k) := fun k => hx p k r hi0
  have hh' : ∀ k, h (ix2 p k) = H (ix2 r k) := fun k => hh p k r hi0
  rw [pay_relu_at, affineRelu_ix2]
  simp only [hx', hh']

/-- WHAT POINT `t` WRITES BACK is block `t` of `affineRelu` of the arrays as the region finds them. -/
theorem flushed_eq (c : Dev nD) (t : Fin cfg0.N) :
    (dat0 V c).flushed 5 t = ((cfg0.win 5).blk t).view.read (Elt Ideal)
      (affineRelu (V c main_arg0) (V c main_v20) (V c main_v21) (V c main_v22) (V c main_arg5)) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x64) hz2, View.ld_unit_zero (S := S64) hz1]
  rw [wsblk V c t, wnblk V c t, bblk V c t]
  obtain ⟨-, -, -, -, -, -, -, -, -, e0, e1⟩ := idx_facts t
  funext j
  rw [View.read_apply]
  refine block_eq (iblk0 V c 0 t) (iblk0 V c 1 t) _ _ _ (V c main_arg0) (V c main_v20) t.val
    (fun p k r hr => xblk_at V c t p k r hr) (fun p k r hr => hblk_at V c t p k r hr) _ _ ?_ ?_
  · show win0_5.index t (0 : Fin 2) * 10000 + 1 * (j 0).val = t.val * 10000 + (j 0).val; omega
  · show win0_5.index t (1 : Fin 2) * 64 + 1 * (j 1).val = (j 1).val; omega

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v23).slice (win0_5.rect t)).set ↔ _
  rw [View.set_slice_whole, Rect.mem_set_unit]
  exact Iff.rfl

/-- Every node row lies in the block of the point `row / 10000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have htv : t.val = (i 0).val / 10000 := rfl
  obtain ⟨-, -, -, -, -, -, -, -, -, e0, e1⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: `affineRelu` of the arrays the region was entered with. -/
theorem final (c : Dev nD) :
    (dat0 V c).arrAt 5 cfg0.N = affineRelu (V c main_arg0) (V c main_v20) (V c main_v21) (V c main_v22) (V c main_arg5) :=
  (dat0 V c).arrAt_eq_of_cover 5 _ (fun t _ => flushed_eq V c t) cover

end Cert.KernelIdeal.Layer0

end
-- ==== Proof.Layer1.lean ====
/-
  Region 1 of the node pipeline: ten grid points, point `t` working on node rows `10000·t … 10000·t + 9999`.  Its
  two row-blocked inputs are read through the same row range as the output block, the two weight matrices and the bias
  are read whole at every point, and the body stores the affine combination of its blocks.  So every
  write-back is a block of ONE function of the arrays the region finds, `Cert.Sage.affine` of them, and since the ten
  blocks cover all 100000 rows the output array ends holding that function.  Stated for ANY contents `V` at the
  region's entry.
-/
import proofs.«126503_j79164837200035_1_alg».proof.Proof.Gen.KernelIdeal.Frame
import proofs.«126503_j79164837200035_1_alg».proof.Proof.Payload
import proofs.«126503_j79164837200035_1_alg».proof.Proof.Spec
import Idealize.ShloMosaic.Lib.Pipeline.Value

set_option maxRecDepth 16384

noncomputable section

namespace Cert.KernelIdeal.Layer1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices of the six windows at grid point `t`: the row-blocked ones are at block row `t`, the others at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem t_lt (t : Fin cfg1.N) : t.val < 10 := lt_of_lt_of_eq t.isLt N_1

/-- Row `p` of the first input's block at point `t` is node row `10000·t + p`. -/
theorem xblk_at (c : Dev nD) (t : Fin cfg1.N) (p : Fin 10000) (k : Fin 64) (r : Fin 100000) (hr : r.val = t.val * 10000 + p.val) :
    (iblk1 V c 0 t : Vec Ideal S10000x64 .f32) (ix2 p k) = (V c main_v23 : SN.Idx → EReal) (ix2 r k) := by
  obtain ⟨e0, e1, -⟩ := idx_facts t
  unfold iblk1
  rw [View.read_apply]
  show V c main_v23 _ = V c main_v23 _
  refine congrArg _ ?_
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The same for the aggregated neighbour rows. -/
theorem hblk_at (c : Dev nD) (t : Fin cfg1.N) (p : Fin 10000) (k : Fin 64) (r : Fin 100000) (hr : r.val = t.val * 10000 + p.val) :
    (iblk1 V c 1 t : Vec Ideal S10000x64 .f32) (ix2 p k) = (V c main_v35 : SN.Idx → EReal) (ix2 r k) := by
  obtain ⟨-, -, e0, e1, -⟩ := idx_facts t
  unfold iblk1
  rw [View.read_apply]
  show V c main_v35 _ = V c main_v35 _
  refine congrArg _ ?_
  funext a; apply Fin.ext
  match a with
  | ⟨0, _⟩ => show win1_1.index t (0 : Fin 2) * 10000 + 1 * p.val = r.val; omega
  | ⟨1, _⟩ => show win1_1.index t (1 : Fin 2) * 64 + 1 * k.val = k.val; omega

/-- The weight matrices and the bias are read whole at every point. -/
theorem wsblk (c : Dev nD) (t : Fin cfg1.N) : (iblk1 V c 2 t : Vec Ideal S64x64 .f32) = (V c main_v36 : SW.Idx → EReal) := by
  obtain ⟨-, -, -, -, e0, e1, -⟩ := idx_facts t
  funext y
  unfold iblk1
  rw [View.read_apply]
  show V c main_v36 _ = V c main_v36 _
  refine congrArg _ ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem wnblk (c : Dev nD) (t : Fin cfg1.N) : (iblk1 V c 3 t : Vec Ideal S64x64 .f32) = (V c main_v37 : SW.Idx → EReal) := by
  obtain ⟨-, -, -, -, -, -, e0, e1, -⟩ := idx_facts t
  funext y
  unfold iblk1
  rw [View.read_apply]
  show V c main_v37 _ = V c main_v37 _
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem bblk (c : Dev nD) (t : Fin cfg1.N) : (iblk1 V c 4 t : Vec Ideal S64 .f32) = (V c main_arg8 : SB.Idx → EReal) := by
  obtain ⟨-, -, -, -, -, -, -, -, e0, -⟩ := idx_facts t
  funext y
  unfold iblk1
  rw [View.read_apply]
  show V c main_arg8 _ = V c main_arg8 _
  refine congrArg _ ?_
  funext a; apply Fin.ext
  match a with
  | ⟨0, _⟩ => show win1_4.index t (0 : Fin 1) * 64 + 1 * (y 0).val = (y 0).val; omega

/-- The body's stored block at block index `y` is the whole-array function at the array index `i` that `y` lands on,
    whenever the two row-blocked inputs are rows `10000·n …` of arrays `X`, `H`. -/
theorem block_eq (x h : Vec Ideal S10000x64 .f32) (ws wn : Vec Ideal S64x64 .f32) (b : Vec Ideal S64 .f32)
    (X H : SN.Idx → EReal) (n : ℕ)
    (hx : ∀ (p : Fin 10000) (k : Fin 64) (r : Fin 100000), r.val = n * 10000 + p.val → x (ix2 p k) = X (ix2 r k))
    (hh : ∀ (p : Fin 10000) (k : Fin 64) (r : Fin 100000), r.val = n * 10000 + p.val → h (ix2 p k) = H (ix2 r k))
    (y : S10000x64.Idx) (i : SN.Idx) (hi0 : (i 0).val = n * 10000 + (y 0).val) (hi1 : (i 1).val = (y 1).val) :
    k1_pay1 x h ws wn b y = affine X H ws wn b i := by
  obtain ⟨p, q, rfl⟩ : ∃ (p : Fin 10000) (q : Fin 64), y = ix2 p q := ⟨y 0, y 1, eq_ix2 y⟩
  obtain ⟨r, j, rfl⟩ : ∃ (r : Fin 100000) (j : Fin 64), i = ix2 r j := ⟨i 0, i 1, eq_ix2 i⟩
  have hj : j = q := Fin.ext hi1
  subst hj
  have hx' : ∀ k, x (ix2 p k) = X (ix2 r k) := fun k => hx p k r hi0
  have hh' : ∀ k, h (ix2 p k) = H (ix2 r k) := fun k => hh p k r hi0
  rw [pay_plain_at, affine_ix2]
  simp only [hx', hh']

/-- WHAT POINT `t` WRITES BACK is block `t` of `affine` of the arrays as the region finds them. -/
theorem flushed_eq (c : Dev nD) (t : Fin cfg1.N) :
    (dat1 V c).flushed 5 t = ((cfg1.win 5).blk t).view.read (Elt Ideal)
      (affine (V c main_v23) (V c main_v35) (V c main_v36) (V c main_v37) (V c main_arg8)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S64) hz1]
  rw [wsblk V c t, wnblk V c t, bblk V c t]
  obtain ⟨-, -, -, -, -, -, -, -, -, e0, e1⟩ := idx_facts t
  funext j
  rw [View.read_apply]
  refine block_eq (iblk1 V c 0 t) (iblk1 V c 1 t) _ _ _ (V c main_v23) (V c main_v35) t.val
    (fun p k r hr => xblk_at V c t p k r hr) (fun p k r hr => hblk_at V c t p k r hr) _ _ ?_ ?_
  · show win1_5.index t (0 : Fin 2) * 10000 + 1 * (j 0).val = t.val * 10000 + (j 0).val; omega
  · show win1_5.index t (1 : Fin 2) * 64 + 1 * (j 1).val = (j 1).val; omega

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v38).slice (win1_5.rect t)).set ↔ _
  rw [View.set_slice_whole, Rect.mem_set_unit]
  exact Iff.rfl

/-- Every node row lies in the block of the point `row / 10000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  have htv : t.val = (i 0).val / 10000 := rfl
  obtain ⟨-, -, -, -, -, -, -, -, -, e0, e1⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: `affine` of the arrays the region was entered with. -/
theorem final (c : Dev nD) :
    (dat1 V c).arrAt 5 cfg1.N = affine (V c main_v23) (V c main_v35) (V c main_v36) (V c main_v37) (V c main_arg8) :=
  (dat1 V c).arrAt_eq_of_cover 5 _ (fun t _ => flushed_eq V c t) cover

end Cert.KernelIdeal.Layer1

end
-- ==== Proof.Neighbours.lean ====
/-
  The mean over incoming edges, in the two spellings the programs use.
  From the edge lists `src`, `dst` and node features `x`: `msg` adds, into node `dst e`, the feature row of node
  `src e` for every edge `e` (a gather followed by an accumulating scatter), and `degMax` is the larger of a node's
  in-degree (the same scatter of ones) and one.  The kernel's program multiplies `msg` by the reciprocal
  `1 / degMax`, computed once per node and repeated along the feature axis; the reference divides `msg` by `degMax`
  repeated along the feature axis.  On the extended reals a quotient by `d ≠ 0` is the product with `d⁻¹`, and
  `degMax ≥ 1` is never zero, so `a · (1 / d) = a · (1 · d⁻¹) = a · d⁻¹ = a / d` element by element — no finiteness of
  `a` or of the degree is needed.  Neither the gather nor the scatter is opened.
-/
import proofs.«126503_j79164837200035_1_alg».proof.Proof.Gen.KernelIdeal
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Nb

open Cert.KernelIdeal Cert.KernelIdeal.Gen Idealize.ShloMosaic Idealize.ShloMosaic.ValueIdx

/-- The edge sources, a negative index wrapped round by the node count, as a column of start indices. -/
def srcCol (src : IVec S1600000 32) : IVec S1600000x1 32 :=
  broadcastInDim S1600000x1 ![0] bcast_S1600000_S1600000x1_0
    (select
      (cmpi .slt src (broadcastInDim S1600000 ![] bcast_S_S1600000 (constantI S_ 32 0#32)))
      (addi src (broadcastInDim S1600000 ![] bcast_S_S1600000 (constantI S_ 32 100000#32)))
      src)

/-- The edge targets as a column of scatter indices. -/
def dstCol (dst : IVec S1600000 32) : IVec S1600000x1 32 :=
  broadcastInDim S1600000x1 ![0] bcast_S1600000_S1600000x1_0 dst

/-- Per node, the sum of the feature rows of its in-neighbours. -/
def msg (x : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (dstCol dst)
    (Host.gather gather_S100000x64_S1600000x1_S1600000x64_1_0_n_n_0_1_164 x (srcCol src))

/-- Per node, the larger of its in-degree and one. -/
def degMax (dst : IVec S1600000 32) : FVec Ideal S100000 .f32 :=
  maximumf (F := Ideal)
    (Host.scatterAdd (F := Ideal) scatter_S100000_S1600000x1_S1600000_n_0_0_1
      (broadcastInDim S100000 ![] bcast_S_S100000 (constant (F := Ideal) S_ .f32 0x00000000#32))
      (dstCol dst)
      (broadcastInDim S1600000 ![] bcast_S_S1600000 (constant (F := Ideal) S_ .f32 0x3F800000#32)))
    (broadcastInDim S100000 ![] bcast_S_S100000 (constant (F := Ideal) S_ .f32 0x3F800000#32))

/-- The reciprocal of `degMax`, as a column. -/
def invDegCol (dst : IVec S1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32)) (degMax dst))

/-- The mean as the kernel's program computes it: the sum times the reciprocal. -/
def meanMul (x : FVec Ideal S100000x64 .f32) (src dst : IVec S1600000 32) : FVec Ideal S100000x64 .f32 :=
  mulf (F := Ideal) (msg x src dst) (broadcastInDim S100000x64 ![0, 1] bcast_S100000x1_S100000x64_0_1 (invDegCol dst))

/-- The mean as the reference computes it: the sum divided by `degMax`. -/
def meanDiv (x : FVec Ideal S100000x64 .f32) (src dst : IVec S1600000 32) : FVec Ideal S100000x64 .f32 :=
  Host.divf (F := Ideal) (msg x src dst)
    (broadcastInDim S100000x64 ![0, 1] bcast_S100000x1_S100000x64_0_1
      (broadcastInDim S100000x1 ![0] bcast_S100000_S100000x1_0 (degMax dst)))

/-- A per-node vector laid out as a column and repeated along the feature axis reads, at `(r, j)`, the vector at `r`. -/
theorem rows_at (y : S100000.Idx → EReal) (r : Fin 100000) (j : Fin 64) :
    broadcastInDim S100000x64 ![0, 1] bcast_S100000x1_S100000x64_0_1
      (broadcastInDim S100000x1 ![0] bcast_S100000_S100000x1_0 y) (ix2 r j) = y (ix1 r) := by
  rw [broadcastInDim_apply _ bcast_S100000x1_S100000x64_0_1 _ (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])]
  exact broadcastInDim_apply _ bcast_S100000_S100000x1_0 y (ix2 r (0 : Fin 1)) (ix1 r) (fun a => match a with
    | ⟨0, _⟩ => by show r.val = if (100000 : Nat) = 1 then 0 else r.val; rw [if_neg (by decide)])

/-- `degMax` at a node is a maximum with one, so it is not zero. -/
theorem degMax_ne_zero (dst : IVec S1600000 32) (i : S100000.Idx) : degMax dst i ≠ 0 := by
  unfold degMax
  rw [maximumf_apply, broadcastInDim_scalar_apply, constant_apply, Ideal.ofBits_one_f32]
  exact ne_of_gt (lt_of_lt_of_le zero_lt_one (le_max_right _ 1))

/-- THE TWO MEANS ARE ONE FUNCTION: the product with the reciprocal of a divisor that is not zero is the quotient by it
    (`Ideal.mul_one_div`), at every element. -/
theorem mean_eq (x : FVec Ideal S100000x64 .f32) (src dst : IVec S1600000 32) :
    meanMul x src dst = meanDiv x src dst := by
  funext i
  obtain ⟨r, j, rfl⟩ : ∃ (r : Fin 100000) (j : Fin 64), i = ix2 r j := ⟨i 0, i 1, eq_ix2 i⟩
  unfold meanMul meanDiv invDegCol
  rw [mulf_apply, rows_at, hostDivf_apply, hostDivf_apply, rows_at, broadcastInDim_scalar_apply, constant_apply,
    Ideal.ofBits_one_f32]
  exact Ideal.mul_one_div (degMax_ne_zero dst (ix1 r))

end Cert.KernelIdeal.Nb

end
-- ==== Proof.Model.lean ====
/-
  The whole two-layer network as one function of the nine arguments, on the extended reals:
      hidden = max (x·W₁ˢᵀ + mean(x)·W₁ⁿᵀ + b₁) 0,     out = hidden·W₂ˢᵀ + mean(hidden)·W₂ⁿᵀ + b₂,
  with `mean` the mean over incoming edges (Neighbours) and each weight matrix transposed before it is multiplied.
  Both programs are shown to compute `out`.
-/
import proofs.«126503_j79164837200035_1_alg».proof.Proof.Neighbours
import proofs.«126503_j79164837200035_1_alg».proof.Proof.Spec

noncomputable section

namespace Cert.KernelIdeal.Model

open Cert.KernelIdeal Cert.KernelIdeal.Gen Cert.KernelIdeal.Nb Cert.Sage Idealize.ShloMosaic

/-- A weight matrix transposed, as it is multiplied. -/
def tr (w : FVec Ideal S64x64 .f32) : FVec Ideal S64x64 .f32 := transpose S64x64 [1, 0] w transposes_S64x64_S64x64_1_0

/-- The first layer's output. -/
def hidden (x : FVec Ideal S100000x64 .f32) (src dst : IVec S1600000 32) (ws wn : FVec Ideal S64x64 .f32)
    (b : FVec Ideal S64 .f32) : FVec Ideal S100000x64 .f32 :=
  affineRelu x (meanDiv x src dst) (tr ws) (tr wn) b

/-- The network's output. -/
def out (x : FVec Ideal S100000x64 .f32) (src dst : IVec S1600000 32) (ws1 wn1 : FVec Ideal S64x64 .f32)
    (b1 : FVec Ideal S64 .f32) (ws2 wn2 : FVec Ideal S64x64 .f32) (b2 : FVec Ideal S64 .f32) : FVec Ideal S100000x64 .f32 :=
  affine (hidden x src dst ws1 wn1 b1) (meanDiv (hidden x src dst ws1 wn1 b1) src dst) (tr ws2) (tr wn2) b2

end Cert.KernelIdeal.Model

end
-- ==== Proof.KernelValue.lean ====
/-
  The idealized kernel's result as a function of the arguments.  The buffer contents are followed from the launch to
  the return: the host operations before the first pipeline compute the neighbour mean of the input features (as a
  product with the reciprocal degree) and the transposed weights; the first pipeline leaves `affineRelu` of them in
  its output array (Layer0); the host operations between the pipelines gather and scatter THAT array into the second
  mean, reusing the reciprocal degree computed at the start; the second pipeline leaves `affine` of its inputs
  (Layer1).  Rewriting both products with the reciprocal into quotients (`Nb.mean_eq`) gives `Model.out`.
-/
import proofs.«126503_j79164837200035_1_alg».proof.Proof.Gen.KernelIdeal.Frame
import proofs.«126503_j79164837200035_1_alg».proof.Proof.Layer0
import proofs.«126503_j79164837200035_1_alg».proof.Proof.Layer1
import proofs.«126503_j79164837200035_1_alg».proof.Proof.Model
import Idealize.ShloMosaic.Lib.StableHlo.Run

set_option maxRecDepth 16384

noncomputable section

namespace Cert.KernelIdeal.KValue

open Cert.KernelIdeal Cert.KernelIdeal.Gen Cert.KernelIdeal.Nb Cert.KernelIdeal.Model Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first pipeline is entered with -/

theorem V1_arg0 (c : Dev nD) : V1 m ρ c main_arg0 = (m ((c : Thread nD τ).loc main_arg0)) := by
  show StableHlo.after hostOps0 (W0 m ρ c) (Proc.devRef .tc main_arg0) = _
  dsimp only [hostOps0]
  after_results_simp <;> rfl

theorem V1_v20 (c : Dev nD) : V1 m ρ c main_v20 = meanMul (m ((c : Thread nD τ).loc main_arg0)) (m ((c : Thread nD τ).loc main_arg1)) (m ((c : Thread nD τ).loc main_arg2)) := by
  show StableHlo.after hostOps0 (W0 m ρ c) (Proc.devRef .tc main_v20) = _
  dsimp only [hostOps0]
  after_results_simp <;> rfl

theorem V1_v21 (c : Dev nD) : V1 m ρ c main_v21 = tr (m ((c : Thread nD τ).loc main_arg3)) := by
  show StableHlo.after hostOps0 (W0 m ρ c) (Proc.devRef .tc main_v21) = _
  dsimp only [hostOps0]
  after_results_simp <;> rfl

theorem V1_v22 (c : Dev nD) : V1 m ρ c main_v22 = tr (m ((c : Thread nD τ).loc main_arg4)) := by
  show StableHlo.after hostOps0 (W0 m ρ c) (Proc.devRef .tc main_v22) = _
  dsimp only [hostOps0]
  after_results_simp <;> rfl

theorem V1_arg5 (c : Dev nD) : V1 m ρ c main_arg5 = (m ((c : Thread nD τ).loc main_arg5)) := by
  show StableHlo.after hostOps0 (W0 m ρ c) (Proc.devRef .tc main_arg5) = _
  dsimp only [hostOps0]
  after_results_simp <;> rfl

theorem W1_arg1 (c : Dev nD) : W1 m ρ c (Proc.devRef .tc main_arg1) = (m ((c : Thread nD τ).loc main_arg1)) := by
  show StableHlo.after hostOps0 (W0 m ρ c) (Proc.devRef .tc main_arg1) = _
  dsimp only [hostOps0]
  after_results_simp <;> rfl

theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl

theorem W1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl

theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl

theorem W1_arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl

theorem W1_v8 (c : Dev nD) : W1 m ρ c (Proc.devRef .tc main_v8) = invDegCol (m ((c : Thread nD τ).loc main_arg2)) := by
  show StableHlo.after hostOps0 (W0 m ρ c) (Proc.devRef .tc main_v8) = _
  dsimp only [hostOps0]
  after_results_simp <;> rfl

/-! ## What it leaves -/

/-- The first layer's output as the kernel's program computes it. -/
abbrev hiddenK (c : Dev nD) : FVec Ideal S100000x64 .f32 := affineRelu (m ((c : Thread nD τ).loc main_arg0)) (meanMul (m ((c : Thread nD τ).loc main_arg0)) (m ((c : Thread nD τ).loc main_arg1)) (m ((c : Thread nD τ).loc main_arg2))) (tr (m ((c : Thread nD τ).loc main_arg3))) (tr (m ((c : Thread nD τ).loc main_arg4))) (m ((c : Thread nD τ).loc main_arg5))

theorem W2_v23 (c : Dev nD) : W2 m ρ c (Proc.devRef .tc main_v23) = hiddenK m c :=
  (W2_arr m ρ c 5).trans ((Cert.KernelIdeal.Layer0.final (V1 m ρ) c).trans (by
    rw [V1_arg0 m ρ c, V1_v20 m ρ c, V1_v21 m ρ c, V1_v22 m ρ c, V1_arg5 m ρ c]))

theorem W2_arg1 (c : Dev nD) : W2 m ρ c (Proc.devRef .tc main_arg1) = (m ((c : Thread nD τ).loc main_arg1)) :=
  (W2_of_ne m ρ c main_arg1 (by decide)).trans (W1_arg1 m ρ c)
theorem W2_arg2 (c : Dev nD) : W2 m ρ c (Proc.devRef .tc main_arg2) = (m ((c : Thread nD τ).loc main_arg2)) :=
  (W2_of_ne m ρ c main_arg2 (by decide)).trans (W1_arg2 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_v8 (c : Dev nD) : W2 m ρ c (Proc.devRef .tc main_v8) = invDegCol (m ((c : Thread nD τ).loc main_arg2)) :=
  (W2_of_ne m ρ c main_v8 (by decide)).trans (W1_v8 m ρ c)

/-! ## What the second pipeline is entered with -/

theorem V3_v23 (c : Dev nD) : V3 m ρ c main_v23 = hiddenK m c := by
  show StableHlo.after hostOps1 (W2 m ρ c) (Proc.devRef .tc main_v23) = _
  dsimp only [hostOps1]
  after_results_simp
  exact W2_v23 m ρ c

theorem V3_v35 (c : Dev nD) : V3 m ρ c main_v35 = meanMul (hiddenK m c) (m ((c : Thread nD τ).loc main_arg1)) (m ((c : Thread nD τ).loc main_arg2)) := by
  show StableHlo.after hostOps1 (W2 m ρ c) (Proc.devRef .tc main_v35) = _
  dsimp only [hostOps1]
  after_results_simp
  rw [W2_arg2 m ρ c, W2_v23 m ρ c, W2_arg1 m ρ c, W2_v8 m ρ c]
  rfl

theorem V3_v36 (c : Dev nD) : V3 m ρ c main_v36 = tr (m ((c : Thread nD τ).loc main_arg6)) := by
  show StableHlo.after hostOps1 (W2 m ρ c) (Proc.devRef .tc main_v36) = _
  dsimp only [hostOps1]
  after_results_simp
  rw [W2_arg6 m ρ c]
  rfl

theorem V3_v37 (c : Dev nD) : V3 m ρ c main_v37 = tr (m ((c : Thread nD τ).loc main_arg7)) := by
  show StableHlo.after hostOps1 (W2 m ρ c) (Proc.devRef .tc main_v37) = _
  dsimp only [hostOps1]
  after_results_simp
  rw [W2_arg7 m ρ c]
  rfl

theorem V3_arg8 (c : Dev nD) : V3 m ρ c main_arg8 = (m ((c : Thread nD τ).loc main_arg8)) := by
  show StableHlo.after hostOps1 (W2 m ρ c) (Proc.devRef .tc main_arg8) = _
  dsimp only [hostOps1]
  after_results_simp
  exact W2_arg8 m ρ c

/-! ## The result -/

/-- The result buffer at the return holds the model's output of the launch arguments. -/
theorem result (c : Dev nD) :
    W4 m ρ c (Proc.devRef .tc main_v38)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Layer1.final (V3 m ρ) c).trans ?_)
  rw [V3_v23 m ρ c, V3_v35 m ρ c, V3_v36 m ρ c, V3_v37 m ρ c, V3_arg8 m ρ c]
  unfold Cert.KernelIdeal.Model.out Cert.KernelIdeal.Model.hidden hiddenK
  simp only [mean_eq]

end Cert.KernelIdeal.KValue

end
-- ==== Proof.RefValue.lean ====
/-
  The reference computes `Model.out`.  Its program is read stage by stage (the generated read-back): a stage that is
  `dot_general(X, A) + dot_general(H, B) + bias` is `Cert.Sage.affine X H A B bias` element by element — a host
  `dot_general` over one contracted axis is the plain sum on the extended reals, and the bias laid out as a row and
  repeated down the node axis reads the bias at the column —, the `relu` is the maximum with the zero word, and the
  reference's quotient of the scattered sum by the repeated degree is `Nb.meanDiv` verbatim.
-/
import proofs.«126503_j79164837200035_1_alg».proof.Proof.Gen.ReferenceIdeal.Read
import proofs.«126503_j79164837200035_1_alg».proof.Proof.Model

noncomputable section

namespace Cert.ReferenceIdeal.RefValue

open Cert.ReferenceIdeal Cert.ReferenceIdeal.Gen Cert.ReferenceIdeal.Read Cert.Sage
open Idealize.ShloMosaic Idealize.ShloMosaic.ValueIdx

/-- A host product of node rows with a 64×64 matrix, at `(r, j)`: the sum over the 64 contracted features. -/
theorem dot_at (X : FVec Ideal S100000x64 .f32) (Y : FVec Ideal S64x64 .f32) (r : Fin 100000) (j : Fin 64) :
    Host.dotGeneral dot_S100000x64_S64x64_S100000x64_1_0_0_1_n_n none X Y (ix2 r j) = ∑ k : Fin 64, X (ix2 r k) * Y (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact lhs_main_v20_0 _ _
    | ⟨1, _⟩ => exact (lhs_main_v20_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (rhs_main_v20_0 _ _).trans hk
    | ⟨1, _⟩ => exact rhs_main_v20_1 _ _)
  rw [el, er]

/-- The bias laid out as one row and repeated down the node axis, at `(r, j)`: the bias at `j`. -/
theorem bias_at (b : FVec Ideal S64 .f32) (r : Fin 100000) (j : Fin 64) :
    broadcastInDim S100000x64 ![0, 1] bcast_S1x64_S100000x64_0_1 (broadcastInDim S1x64 ![1] bcast_S64_S1x64_1 b) (ix2 r j) = b (ix1 j) := by
  rw [broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- Two host products added, plus the repeated bias: the affine combination. -/
theorem ref_affine (X H : FVec Ideal S100000x64 .f32) (A B : FVec Ideal S64x64 .f32) (b : FVec Ideal S64 .f32) :
    addf (addf (Host.dotGeneral dot_S100000x64_S64x64_S100000x64_1_0_0_1_n_n none X A) (Host.dotGeneral dot_S100000x64_S64x64_S100000x64_1_0_0_1_n_n none H B))
        (broadcastInDim S100000x64 ![0, 1] bcast_S1x64_S100000x64_0_1 (broadcastInDim S1x64 ![1] bcast_S64_S1x64_1 b))
      = affine X H A B b := by
  funext i
  obtain ⟨r, j, rfl⟩ : ∃ (r : Fin 100000) (j : Fin 64), i = ix2 r j := ⟨i 0, i 1, eq_ix2 i⟩
  rw [addf_apply, addf_apply, dot_at, dot_at, bias_at, affine_ix2]

/-- The maximum with the repeated zero word: the cut-off at zero. -/
theorem ref_relu (X H : FVec Ideal S100000x64 .f32) (A B : FVec Ideal S64x64 .f32) (b : FVec Ideal S64 .f32) :
    maximumf (F := Ideal) (affine X H A B b : FVec Ideal S100000x64 .f32)
        (broadcastInDim S100000x64 ![] bcast_S_S100000x64 (constant (F := Ideal) S_ .f32 0x00000000#32))
      = affineRelu X H A B b := by
  funext i
  rw [maximumf_apply, broadcastInDim_apply _ bcast_S_S100000x64 _ i ix0 (fun a => a.elim0), constant_apply, Ideal.ofBits_zero_f32]
  rfl

/-- The reference's two quotients are the mean over incoming edges, and its transposes the model's. -/
theorem mean1 (x0 : FVec Ideal S100000x64 .f32) (x1 x2 : IVec S1600000 32) : val_main_v18 (F := Ideal) x0 x1 x2 = Cert.KernelIdeal.Nb.meanDiv x0 x1 x2 := rfl
theorem mean2 (x0 : FVec Ideal S100000x64 .f32) (x1 x2 : IVec S1600000 32) (x3 x4 : FVec Ideal S64x64 .f32) (x5 : FVec Ideal S64 .f32) :
    val_main_v46 (F := Ideal) x0 x1 x2 x3 x4 x5 = Cert.KernelIdeal.Nb.meanDiv (val_main_v27 (F := Ideal) x0 x1 x2 x3 x4 x5) x1 x2 := rfl
theorem tr3 (w : FVec Ideal S64x64 .f32) : val_main_v19 (F := Ideal) w = Cert.KernelIdeal.Model.tr w := rfl
theorem tr4 (w : FVec Ideal S64x64 .f32) : val_main_v21 (F := Ideal) w = Cert.KernelIdeal.Model.tr w := rfl
theorem tr6 (w : FVec Ideal S64x64 .f32) : val_main_v47 (F := Ideal) w = Cert.KernelIdeal.Model.tr w := rfl
theorem tr7 (w : FVec Ideal S64x64 .f32) : val_main_v49 (F := Ideal) w = Cert.KernelIdeal.Model.tr w := rfl

/-- The first layer as the reference computes it is the model's. -/
theorem hidden_eq (x0 : FVec Ideal S100000x64 .f32) (x1 x2 : IVec S1600000 32) (x3 x4 : FVec Ideal S64x64 .f32) (x5 : FVec Ideal S64 .f32) :
    val_main_v27 (F := Ideal) x0 x1 x2 x3 x4 x5 = Cert.KernelIdeal.Model.hidden x0 x1 x2 x3 x4 x5 := by
  unfold val_main_v27 val_main_v26 val_main_v23 val_main_v20 val_main_v22 val_main_v25 val_main_v24 val_main_call0_v0 val_main_call0_cst
  rw [ref_affine, ref_relu, mean1, tr3, tr4]
  rfl

/-- The reference's result is the model's output. -/
theorem out_eq (x0 : FVec Ideal S100000x64 .f32) (x1 x2 : IVec S1600000 32) (x3 x4 : FVec Ideal S64x64 .f32) (x5 : FVec Ideal S64 .f32) (x6 x7 : FVec Ideal S64x64 .f32) (x8 : FVec Ideal S64 .f32) :
    val_main_v54 (F := Ideal) x0 x1 x2 x3 x4 x5 x6 x7 x8 = Cert.KernelIdeal.Model.out x0 x1 x2 x3 x4 x5 x6 x7 x8 := by
  unfold val_main_v54 val_main_v51 val_main_v48 val_main_v50 val_main_v53 val_main_v52
  rw [ref_affine, mean2, hidden_eq, tr6, tr7]
  rfl

end Cert.ReferenceIdeal.RefValue

end
-- ==== Proof.lean ====
/-
  A two-layer GraphSAGE network with mean aggregation over 100000 nodes, 1.6 million edges and 64 features: the kernel's
  program against its jnp reference, equal on the extended reals.

  Both programs gather the source rows of every edge and scatter-add them at the edge targets with the same host
  operations, which are never opened.  They differ in two places only.  (1) The kernel's program computes the
  reciprocal of `max(degree, 1)` once and MULTIPLIES each layer's scattered sum by it, where the reference DIVIDES by
  `max(degree, 1)`: on the extended reals a quotient by `d ≠ 0` is the product with `d⁻¹`, and `1 / d = d⁻¹`, so the
  two agree at every element because `max(degree, 1) ≥ 1` is not zero (Neighbours; no finiteness is used).  (2) The
  dense step `x·Wsᵀ + mean·Wnᵀ + b` (followed by a maximum with zero in the first layer) runs in the kernel as a
  pipeline over ten blocks of 10000 node rows, each block two matrix-unit products of bf16-rounded operands into a zero
  accumulator, and in the reference as two whole `dot_general`s: roundings are the identity on the extended reals and
  both products are the same sum over the 64 contracted features, in the same grouping of the three summands
  (Payload, Layer0, Layer1 for the kernel; RefValue for the reference).  The kernel's value is followed through its
  four stretches — host operations, pipeline, host operations, pipeline — in KernelValue, over the run of RunValue.
  Both sides are shown to end at `Model.out` of the nine arguments.  The idealization rewrote nothing, so `preserves`
  is trivial; the three frames are the generated ones.
-/
import proofs.«126503_j79164837200035_1_alg».proof.Defs
import proofs.«126503_j79164837200035_1_alg».proof.Proof.Gen.Kernel
import proofs.«126503_j79164837200035_1_alg».proof.Proof.Gen.Kernel.Skeleton
import proofs.«126503_j79164837200035_1_alg».proof.Proof.Gen.Kernel.Launch
import proofs.«126503_j79164837200035_1_alg».proof.Proof.Gen.Kernel.Points
import proofs.«126503_j79164837200035_1_alg».proof.Proof.Gen.Kernel.Frame
import proofs.«126503_j79164837200035_1_alg».proof.Proof.Gen.KernelIdeal
import proofs.«126503_j79164837200035_1_alg».proof.Proof.Gen.KernelIdeal.Skeleton
import proofs.«126503_j79164837200035_1_alg».proof.Proof.Gen.KernelIdeal.Launch
import proofs.«126503_j79164837200035_1_alg».proof.Proof.Gen.KernelIdeal.Points
import proofs.«126503_j79164837200035_1_alg».proof.Proof.Gen.KernelIdeal.Frame
import proofs.«126503_j79164837200035_1_alg».proof.Proof.Gen.ReferenceIdeal
import proofs.«126503_j79164837200035_1_alg».proof.Proof.Gen.Pre_finite_inputs
import proofs.«126503_j79164837200035_1_alg».proof.Proof.Gen.ReferenceIdeal.Run
import proofs.«126503_j79164837200035_1_alg».proof.Proof.Gen.ReferenceIdeal.Read
import proofs.«126503_j79164837200035_1_alg».proof.Proof.RunValue
import proofs.«126503_j79164837200035_1_alg».proof.Proof.KernelValue
import proofs.«126503_j79164837200035_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Model.out` of the arguments, which agree. -/
theorem algebraic : Cert.algebraic_KernelIdeal_ReferenceIdeal := by
  intro m ρ m' ρ' _ hagree
  refine ⟨fun c => Cert.KernelIdeal.Model.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.result m ρ c), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v54_eq, Cert.ReferenceIdeal.RefValue.out_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
